-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131x131 : Shape := ⟨2, ![131, 131]⟩
abbrev S131x512 : Shape := ⟨2, ![131, 512]⟩
abbrev S512x512 : Shape := ⟨2, ![512, 512]⟩
abbrev S_ : Shape := ⟨0, ![]⟩

class Facts : Prop where
  bcast_S_S131x131 : S_.BroadcastsInDim S131x131 (![] : Fin 0 → Fin S131x131.rank)
  reducesTo_S131x131_S_d0_1 : S131x131.ReducesTo [0, 1] S_
  h_S_ : 0 < S_.numel
  bcast_S_S131x512 : S_.BroadcastsInDim S131x512 (![] : Fin 0 → Fin S131x512.rank)
  reducesTo_S131x512_S_d0_1 : S131x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S131x131 .f32) (main_arg1 : FVec F S131x512 .f32) (main_arg2 : FVec F S131x512 .f32) (main_arg3 : FVec F S512x512 .f32) (main_arg4 : FVec F S512x512 .f32) : IVec S_ 1 :=
  let main_v0 : FVec F S131x131 .f32 := Host.absf main_arg0
  let main_cst : FVec F S_ .f32 := constant S_ .f32 0x7F800000#32
  let main_v1 : FVec F S131x131 .f32 := broadcastInDim S131x131 ![] bcast_S_S131x131 main_cst
  let main_v2 : IVec S131x131 1 := cmpf .olt main_v0 main_v1
  let main_c : IVec S_ 1 := constantI S_ 1 1#1
  let main_v3 : IVec S_ 1 := (fun x v => Host.reduce IntOp.andi x v reducesTo_S131x131_S_d0_1 h_S_) main_v2 main_c
  let main_v4 : FVec F S131x512 .f32 := Host.absf main_arg1
  let main_cst_0 : FVec F S_ .f32 := constant S_ .f32 0x7F800000#32
  let main_v5 : FVec F S131x512 .f32 := broadcastInDim S131x512 ![] bcast_S_S131x512 main_cst_0
  let main_v6 : IVec S131x512 1 := cmpf .olt main_v4 main_v5
  let main_c_1 : IVec S_ 1 := constantI S_ 1 1#1
  let main_v7 : IVec S_ 1 := (fun x v => Host.reduce IntOp.andi x v reducesTo_S131x512_S_d0_1 h_S_) main_v6 main_c_1
  let main_v8 : IVec S_ 1 := andi main_v3 main_v7
  let main_v9 : FVec F S131x512 .f32 := Host.absf main_arg2
  let main_cst_2 : FVec F S_ .f32 := constant S_ .f32 0x7F800000#32
  let main_v10 : FVec F S131x512 .f32 := broadcastInDim S131x512 ![] bcast_S_S131x512 main_cst_2
  let main_v11 : IVec S131x512 1 := cmpf .olt main_v9 main_v10
  let main_c_3 : IVec S_ 1 := constantI S_ 1 1#1
  let main_v12 : IVec S_ 1 := (fun x v => Host.reduce IntOp.andi x v reducesTo_S131x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S131x131 : Shape := ⟨2, ![131, 131]⟩
abbrev S131x512 : Shape := ⟨2, ![131, 512]⟩
abbrev S512x512 : Shape := ⟨2, ![512, 512]⟩
abbrev S5x131x512 : Shape := ⟨3, ![5, 131, 512]⟩
abbrev S1x131x512 : Shape := ⟨3, ![1, 131, 512]⟩
abbrev S2x131x512 : Shape := ⟨3, ![2, 131, 512]⟩

abbrev nBuf : Space → Nat
  | .hbm => 10
  | .vmem => 6
  | .smem => 0
  | _ => 0

abbrev bufTy : (tb : Table) → Fin (tcTables nBuf tb) → BufTy
  | .hbm, ⟨0, _⟩ => ⟨S131x131, .f32⟩
  | .hbm, ⟨1, _⟩ => ⟨S131x512, .f32⟩
  | .hbm, ⟨2, _⟩ => ⟨S131x512, .f32⟩
  | .hbm, ⟨3, _⟩ => ⟨S512x512, .f32⟩
  | .hbm, ⟨4, _⟩ => ⟨S512x512, .f32⟩
  | .hbm, ⟨5, _⟩ => ⟨S5x131x512, .f32⟩
  | .hbm, ⟨6, _⟩ => ⟨S1x131x512, .f32⟩
  | .hbm, ⟨7, _⟩ => ⟨S131x512, .f32⟩
  | .hbm, ⟨8, _⟩ => ⟨S2x131x512, .f32⟩
  | .hbm, ⟨9, _⟩ => ⟨S2x131x512, .f32⟩
  | .local _ .vmem, ⟨0, _⟩ => ⟨S131x131, .f32⟩
  | .local _ .vmem, ⟨1, _⟩ => ⟨S131x512, .f32⟩
  | .local _ .vmem, ⟨2, _⟩ => ⟨S131x512, .f32⟩
  | .local _ .vmem, ⟨3, _⟩ => ⟨S512x512, .f32⟩
  | .local _ .vmem, ⟨4, _⟩ => ⟨S512x512, .f32⟩
  | .local _ .vmem, ⟨5, _⟩ => ⟨S5x131x512, .f32⟩
  | _, _ => ⟨S131x131, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S131x131 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S131x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S131x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x131x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

class Facts₀ : Prop where
  inb_S131x512_S131x512_0_0 : ∀ a, (![0, 0] : Fin 2 → Nat) a + S131x512.size a ≤ S131x512.size a
  h_S131x512 : 0 < S131x512.numel
  inb_S131x131_S131x131_0_0 : ∀ a, (![0, 0] : Fin 2 → Nat) a + S131x131.size a ≤ S131x131.size a
  h_S131x131 : 0 < S131x131.numel
  inb_S512x512_S512x512_0_0 : ∀ a, (![0, 0] : Fin 2 → Nat) a + S512x512.size a ≤ S512x512.size a
  h_S512x512 : 0 < S512x512.numel
  inb_S5x131x512_S1x131x512_0_0_0 : ∀ a, (![0, 0, 0] : Fin 3 → Nat) a + S1x131x512.size a ≤ S5x131x512.size a
  h_S1x131x512 : 0 < S1x131x512.numel
  shapeCasts_S1x131x512_S131x512 : S1x131x512.ShapeCasts S131x512
  shapeCasts_S131x512_S1x131x512 : S131x512.ShapeCasts S1x131x512
  inb_S5x131x512_S1x131x512_2_0_0 : ∀ a, (![2, 0, 0] : Fin 3 → Nat) a + S1x131x512.size a ≤ S5x131x512.size a
  inb_S5x131x512_S1x131x512_1_0_0 : ∀ a, (![1, 0, 0] : Fin 3 → Nat) a + S1x131x512.size a ≤ S5x131x512.size a
  inb_S5x131x512_S1x131x512_3_0_0 : ∀ a, (![3, 0, 0] : Fin 3 → Nat) a + S1x131x512.size a ≤ S5x131x512.size a
  inb_S5x131x512_S1x131x512_4_0_0 : ∀ a, (![4, 0, 0] : Fin 3 → Nat) a + S1x131x512.size a ≤ S5x131x512.size a
  slices_S5x131x512_S1x131x512_4_0_0 : S5x131x512.Slices ![4, 0, 0] S1x131x512
  slices_S5x131x512_S2x131x512_0_0_0 : S5x131x512.Slices ![0, 0, 0] S2x131x512
  slices_S5x131x512_S2x131x512_2_0_0 : S5x131x512.Slices ![2, 0, 0] S2x131x512
  dot_S131x512_S512x512_S131x512_1_0_0_1_n_n_wf : DotDims.WF S131x512 S512x512 S131x512 [1] [0] [0] [1] [] []
  dot_S131x512_S131x512_S131x131_1_1_0_0_n_n_wf : DotDims.WF S131x512 S131x512 S131x131 [1] [1] [0] [0] [] []
  dot_S131x131_S131x512_S131x512_1_0_0_1_n_n_wf : DotDims.WF S131x131 S131x512 S131x512 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole

variable [Facts₀]

def dot_S131x512_S512x512_S131x512_1_0_0_1_n_n : DotDims S131x512 S512x512 S131x512 where
  lhsContracting := [1]
  rhsContracting := [0]
  lhsNonContracting := [0]
  rhsNonContracting := [1]
  lhsBatch := []
  rhsBatch := []
  wf := dot_S131x512_S512x512_S131x512_1_0_0_1_n_n_wf
def dot_S131x512_S131x512_S131x131_1_1_0_0_n_n : DotDims S131x512 S131x512 S131x131 where
  lhsContracting := [1]
  rhsContracting := [1]
  lhsNonContracting := [0]
  rhsNonContracting := [0]
  lhsBatch := []
  rhsBatch := []
  wf := dot_S131x512_S131x512_S131x131_1_1_0_0_n_n_wf
def dot_S131x131_S131x512_S131x512_1_0_0_1_n_n : DotDims S131x131 S131x512 S131x512 where
  lhsContracting := [1]
  rhsContracting := [0]
  lhsNonContracting := [0]
  rhsNonContracting := [1]
  lhsBatch := []
  rhsBatch := []
  wf := dot_S131x131_S131x512_S131x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v0) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131x131 : Shape := ⟨2, ![131, 131]⟩
abbrev S131x512 : Shape := ⟨2, ![131, 512]⟩
abbrev S512x512 : Shape := ⟨2, ![512, 512]⟩
abbrev S512x131 : Shape := ⟨2, ![512, 131]⟩
abbrev S_ : Shape := ⟨0, ![]⟩
abbrev S1x131x512 : Shape := ⟨3, ![1, 131, 512]⟩
abbrev S2x131x512 : Shape := ⟨3, ![2, 131, 512]⟩

abbrev nBuf : Space → Nat
  | .hbm => 40
  | .vmem => 0
  | .smem => 0
  | _ => 0

abbrev bufTy : (tb : Table) → Fin (tcTables nBuf tb) → BufTy
  | .hbm, ⟨0, _⟩ => ⟨S131x131, .f32⟩
  | .hbm, ⟨1, _⟩ => ⟨S131x512, .f32⟩
  | .hbm, ⟨2, _⟩ => ⟨S131x512, .f32⟩
  | .hbm, ⟨3, _⟩ => ⟨S512x512, .f32⟩
  | .hbm, ⟨4, _⟩ => ⟨S512x512, .f32⟩
  | .hbm, ⟨5, _⟩ => ⟨S131x512, .f32⟩
  | .hbm, ⟨6, _⟩ => ⟨S131x512, .f32⟩
  | .hbm, ⟨7, _⟩ => ⟨S131x512, .f32⟩
  | .hbm, ⟨8, _⟩ => ⟨S131x512, .f32⟩
  | .hbm, ⟨9, _⟩ => ⟨S512x131, .f32⟩
  | .hbm, ⟨10, _⟩ => ⟨S512x512, .f32⟩
  | .hbm, ⟨11, _⟩ => ⟨S131x512, .f32⟩
  | .hbm, ⟨12, _⟩ => ⟨S512x131, .f32⟩
  | .hbm, ⟨13, _⟩ => ⟨S512x512, .f32⟩
  | .hbm, ⟨14, _⟩ => ⟨S131x512, .f32⟩
  | .hbm, ⟨15, _⟩ => ⟨S131x512, .f32⟩
  | .hbm, ⟨16, _⟩ => ⟨S131x512, .f32⟩
  | .hbm, ⟨17, _⟩ => ⟨S131x512, .f32⟩
  | .hbm, ⟨18, _⟩ => ⟨S512x131, .f32⟩
  | .hbm, ⟨19, _⟩ => ⟨S512x512, .f32⟩
  | .hbm, ⟨20, _⟩ => ⟨S131x512, .f32⟩
  | .hbm, ⟨21, _⟩ => ⟨S512x131, .f32⟩
  | .hbm, ⟨22, _⟩ => ⟨S512x512, .f32⟩
  | .hbm, ⟨23, _⟩ => ⟨S131x512, .f32⟩
  | .hbm, ⟨24, _⟩ => ⟨S131x512, .f32⟩
  | .hbm, ⟨25, _⟩ => ⟨S131x512, .f32⟩
  | .hbm, ⟨26, _⟩ => ⟨S_, .f32⟩
  | .hbm, ⟨27, _⟩ => ⟨S131x512, .f32⟩
  | .hbm, ⟨28, _⟩ => ⟨S131x512, .f32⟩
  | .hbm, ⟨29, _⟩ => ⟨S131x512, .f32⟩
  | .hbm, ⟨30, _⟩ => ⟨S131x512, .f32⟩
  | .hbm, ⟨31, _⟩ => ⟨S_, .f32⟩
  | .hbm, ⟨32, _⟩ => ⟨S131x512, .f32⟩
  | .hbm, ⟨33, _⟩ => ⟨S131x512, .f32⟩
  | .hbm, ⟨34, _⟩ => ⟨S1x131x512, .f32⟩
  | .hbm, ⟨35, _⟩ => ⟨S1x131x512, .f32⟩
  | .hbm, ⟨36, _⟩ => ⟨S2x131x512, .f32⟩
  | .hbm, ⟨37, _⟩ => ⟨S1x131x512, .f32⟩
  | .hbm, ⟨38, _⟩ => ⟨S1x131x512, .f32⟩
  | .hbm, ⟨39, _⟩ => ⟨S2x131x512, .f32⟩
  | _, _ => ⟨S131x131, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]

class Facts₀ : Prop where
  transposes_S131x512_S512x131_1_0 : S131x512.Transposes [1, 0] S512x131
  bcast_S_S131x512 : S_.BroadcastsInDim S131x512 (![] : Fin 0 → Fin S131x512.rank)
  bcast_S131x512_S1x131x512_1_2 : S131x512.BroadcastsInDim S1x131x512 (![1, 2] : Fin 2 → Fin S1x131x512.rank)
  concatenates_S1x131x512_S1x131x512_S2x131x512_d0 : Shape.Concatenates [S1x131x512, S1x131x512] S2x131x512 0
  dot_S131x512_S512x512_S131x512_1_0_0_1_n_n_wf : DotDims.WF S131x512 S512x512 S131x512 [1] [0] [0] [1] [] []
  dot_S131x131_S131x512_S131x512_1_0_0_1_n_n_wf : DotDims.WF S131x131 S131x512 S131x512 [1] [0] [0] [1] [] []
  dot_S512x131_S131x512_S512x512_1_0_0_1_n_n_wf : DotDims.WF S512x131 S131x512 S512x512 [1] [0] [0] [1] [] []

variable [Facts₀]

def dot_S131x512_S512x512_S131x512_1_0_0_1_n_n : DotDims S131x512 S512x512 S131x512 where
  lhsContracting := [1]
  rhsContracting := [0]
  lhsNonContracting := [0]
  rhsNonContracting := [1]
  lhsBatch := []
  rhsBatch := []
  wf := dot_S131x512_S512x512_S131x512_1_0_0_1_n_n_wf
def dot_S131x131_S131x512_S131x512_1_0_0_1_n_n : DotDims S131x131 S131x512 S131x512 where
  lhsContracting := [1]
  rhsContracting := [0]
  lhsNonContracting := [0]
  rhsNonContracting := [1]
  lhsBatch := []
  rhsBatch := []
  wf := dot_S131x131_S131x512_S131x512_1_0_0_1_n_n_wf
def dot_S512x131_S131x512_S512x512_1_0_0_1_n_n : DotDims S512x131 S131x512 S512x512 where
  lhsContracting := [1]
  rhsContracting := [0]
  lhsNonContracting := [0]
  rhsNonContracting := [1]
  lhsBatch := []
  rhsBatch := []
  wf := dot_S512x131_S131x512_S512x512_1_0_0_1_n_n_wf

class Facts : Prop extends Facts₀ where

variable [Facts]
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.LibRealEntries.lean ====
/-
  EXTENDED REALS THAT ARE REAL NUMBERS, and the one place a graph Laplacian needs them.

  Over the extended reals a product does not distribute over a difference at the infinities: `(1 - a) · y` and
  `y - a · y` differ when `y` is infinite.  A program that applies `I - A` to a vector as `y - A · y` and one that builds
  the matrix `I - A` and multiplies therefore agree only where the entries are real numbers.  Proved here, free of any
  program:
  • `IsR x` — the extended real `x` is a real number — is closed under sum, difference, product, maximum, the
    exponential and finite sums (`IsR.add` … `IsR.sum`), and holds of the reciprocal square root of a positive real;
  • `coe_sum`: the coercion of a finite real sum is the sum of the coercions;
  • `sum_sub_mul`: `∑ j, (d j - a j) · y j = ∑ j, d j · y j - ∑ j, a j · y j` over real entries;
  • `sum_ind_mul`, `sum_ind_sub_mul`: with `d` the indicator of `i` (the identity matrix's row), the left side is
    `y i - ∑ j, a j · y j`: row `i` of `(I - A) y` is row `i` of `y - A y`;
  • `one_div_sqrt`: at a positive real, `1 / sqrt` is the reciprocal square root;
  • `two_word`: the single-precision pattern `0x40000000` denotes the real number two.
-/
import Idealize.ShloMosaic.PureOps.Ideal
import Idealize.ShloMosaic.PureOps.Ideal.Laws
import proofs.«171643_g20873541059240_cont_8to1_1272_10_alg».proof.Proof.LibNormSum

noncomputable section

open scoped BigOperators

namespace Cert.RealEntries

open Idealize.ShloMosaic

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  rcases le_total a b with h | h
  · rwa [max_eq_right h]
  · rwa [max_eq_left h]

theorem IsR.exp {a : EReal} (ha : IsR a) : IsR (Ideal.exp a) := by
  obtain ⟨r, rfl⟩ := ha; exact ⟨Real.exp r, rfl⟩

theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h _ (Finset.mem_insert_self _ _)).add (ih fun i hi => h i (Finset.mem_insert_of_mem hi))

/-- The coercion of a real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real numbers is the coercion of a real family. -/
theorem exists_real_family {ι : Type*} (f : ι → EReal) (h : ∀ i, IsR (f i)) : ∃ g : ι → ℝ, f = fun i => (g i : EReal) :=
  ⟨fun i => (h i).choose, funext fun i => (h i).choose_spec⟩

/-- Over real numbers, `∑ j, (d j - a j) · y j = ∑ j, d j · y j - ∑ j, a j · y j`. -/
theorem sum_sub_mul {ι : Type*} (s : Finset ι) (d a y : ι → EReal) (hd : ∀ j, IsR (d j)) (ha : ∀ j, IsR (a j))
    (hy : ∀ j, IsR (y j)) : ∑ j ∈ s, (d j - a j) * y j = ∑ j ∈ s, d j * y j - ∑ j ∈ s, a j * y j := by
  obtain ⟨d', rfl⟩ := exists_real_family d hd
  obtain ⟨a', rfl⟩ := exists_real_family a ha
  obtain ⟨y', rfl⟩ := exists_real_family y hy
  simp only [← EReal.coe_sub, ← EReal.coe_mul, ← coe_sum]
  congr 1
  rw [← Finset.sum_sub_distrib]
  exact Finset.sum_congr rfl fun j _ => sub_mul _ _ _

/-- The indicator of `i` picks the `i`-th entry. -/
theorem sum_ind_mul {n : ℕ} (i : Fin n) (y : Fin n → EReal) :
    ∑ j : Fin n, (if i = j then (1 : EReal) else 0) * y j = y i := by
  rw [Finset.sum_eq_single i]
  · rw [if_pos rfl, one_mul]
  · intro j _ hj; rw [if_neg (Ne.symm hj), zero_mul]
  · intro h; exact absurd (Finset.mem_univ i) h

/-- The matrix `I - a` applied to `y`, at row `i`, is `y i - ∑ j, a j · y j` when the entries are real numbers. -/
theorem sum_ind_sub_mul {n : ℕ} (i : Fin n) (a y : Fin n → EReal) (ha : ∀ j, IsR (a j)) (hy : ∀ j, IsR (y j)) :
    ∑ j : Fin n, ((if i = j then (1 : EReal) else 0) - a j) * y j = y i - ∑ j : Fin n, a j * y j := by
  rw [sum_sub_mul Finset.univ _ a y (fun j => by split_ifs; exact IsR.one; exact IsR.zero) ha hy, sum_ind_mul]

/-- At a positive real number `1 / sqrt` is the reciprocal square root. -/
theorem one_div_sqrt (r : ℝ) (hr : 0 < r) : Ideal.div 1 (Ideal.sqrt (r : EReal)) = Ideal.rsqrt (r : EReal) := by
  rw [Cert.NormSum.rsqrt_coe_pos r hr]
  show Ideal.div 1 (if r < 0 then (⊥ : EReal) else (Real.sqrt r : EReal)) = _
  rw [if_neg (not_lt.mpr hr.le), Ideal.div_coe (Real.sqrt_pos.mpr hr).ne', one_mul, one_div]

/-- The reciprocal square root of a positive real number is a real number. -/
theorem IsR.rsqrt_pos (r : ℝ) (hr : 0 < r) : IsR (Ideal.rsqrt (r : EReal)) :=
  ⟨_, Cert.NormSum.rsqrt_coe_pos r hr⟩

/-- The single-precision pattern `0x40000000` denotes the real number two. -/
theorem two_word : Ideal.ofBits .f32 0x40000000#32 = ((2 : ℝ) : EReal) := by
  simp [Ideal.ofBits, Ideal.ieee, -EReal.coe_mul]; norm_num

end Cert.RealEntries

end
-- ==== Proof.Spec.lean ====
/-
  A TWO-LAYER HYPERGRAPH CONVOLUTION ON ARRAYS OF EXTENDED REALS, AND ITS GRAM-MATRIX FORM.

  The data: an adjacency `A` (n × n), two embedding tables `U`, `I` (n × d) and two hyperedge weight tables `UH`, `IH`
  (d × h).  Write `E = U + I`, `P = U · UH`, `Q = I · IH` (n × h).  One layer sends a table `X` (n × d) to

      step X = A · X + hyp X,          hyp X = P · (Pᵀ · X) + Q · (Qᵀ · X),

  the graph term and the hypergraph term (each hyperedge gathers its members' rows, then hands the sum back to them).
  Two layers give `L₁ = step E`, `L₂ = step L₁`; the results are the scaled sum `κ · ((E + L₁) + L₂)`, the two graph terms
  `A · E`, `A · L₁` stacked, and the two hypergraph terms `hyp E`, `hyp L₁` stacked.

  The Gram-matrix form computes the same hypergraph term from ONE n × n matrix that does not depend on the layer,

      hypG X = (P · Pᵀ + Q · Qᵀ) · X.

  `hypG X = hyp X` is associativity of the matrix product together with distributivity over the sum of the two Gram
  matrices: entry (p, c) of either side is  Σ_k Σ_s P p s · P k s · X k c  +  Σ_k Σ_s Q p s · Q k s · X k c, summed in the
  two orders.  On the extended reals a product does not distribute over a sum that mixes +∞ and −∞, so the law is proved
  where every entry is a real number (`gram_sum` over ℝ, then `gram_sum_ereal` for real-valued extended reals); sums and
  products of reals are reals, so the tables a layer produces are again real and the law applies at the second layer too.
-/
import Idealize.ShloMosaic.Lib.ValueIdx
import proofs.«171643_g20873541059240_cont_8to1_1272_10_alg».proof.Proof.LibRealEntries

noncomputable section

open scoped BigOperators

namespace Cert.HyperConv

open Idealize.ShloMosaic Idealize.ShloMosaic.ValueIdx Cert.RealEntries

/-- An array of extended reals with `r` rows and `c` columns. -/
abbrev Arr (r c : ℕ) := (⟨2, ![r, c]⟩ : Shape).Idx → EReal
/-- A stack of `s` such arrays. -/
abbrev Arr3 (s r c : ℕ) := (⟨3, ![s, r, c]⟩ : Shape).Idx → EReal

/-! ## Matrix products and sums, entry by entry -/

section ops

variable {r k c : ℕ}

/-- `a · b`. -/
def mulA (a : Arr r k) (b : Arr k c) : Arr r c := fun j => ∑ t : Fin k, a (ix2 (j 0) t) * b (ix2 t (j 1))
/-- `a · bᵀ`: rows of `a` against rows of `b`. -/
def mulTA (a : Arr r k) (b : Arr c k) : Arr r c := fun j => ∑ t : Fin k, a (ix2 (j 0) t) * b (ix2 (j 1) t)
/-- `aᵀ · b`: columns of `a` against columns of `b`. -/
def TmulA (a : Arr k r) (b : Arr k c) : Arr r c := fun j => ∑ t : Fin k, a (ix2 t (j 0)) * b (ix2 t (j 1))
/-- `a + b`. -/
def addA (a b : Arr r c) : Arr r c := fun j => a j + b j

theorem mulA_apply (a : Arr r k) (b : Arr k c) (p : Fin r) (q : Fin c) :
    mulA a b (ix2 p q) = ∑ t : Fin k, a (ix2 p t) * b (ix2 t q) := rfl
theorem mulTA_apply (a : Arr r k) (b : Arr c k) (p : Fin r) (q : Fin c) :
    mulTA a b (ix2 p q) = ∑ t : Fin k, a (ix2 p t) * b (ix2 q t) := rfl
theorem TmulA_apply (a : Arr k r) (b : Arr k c) (p : Fin r) (q : Fin c) :
    TmulA a b (ix2 p q) = ∑ t : Fin k, a (ix2 t p) * b (ix2 t q) := rfl

/-- Every entry is a real number. -/
def AllR (a : Arr r c) : Prop := ∀ j, IsR (a j)

theorem AllR.addA {a b : Arr r c} (ha : AllR a) (hb : AllR b) : AllR (addA a b) := fun j => (ha j).add (hb j)
theorem AllR.mulA {a : Arr r k} {b : Arr k c} (ha : AllR a) (hb : AllR b) : AllR (mulA a b) :=
  fun _ => IsR.sum _ _ fun _ _ => (ha _).mul (hb _)
theorem AllR.mulTA {a : Arr r k} {b : Arr c k} (ha : AllR a) (hb : AllR b) : AllR (mulTA a b) :=
  fun _ => IsR.sum _ _ fun _ _ => (ha _).mul (hb _)
theorem AllR.TmulA {a : Arr k r} {b : Arr k c} (ha : AllR a) (hb : AllR b) : AllR (TmulA a b) :=
  fun _ => IsR.sum _ _ fun _ _ => (ha _).mul (hb _)

end ops

/-! ## The law: one Gram matrix against gather-then-scatter -/

/-- Over the reals: `Σ_t (Σ_s u p s · u t s + Σ_s i p s · i t s) · x t = Σ_s u p s · (Σ_t u t s · x t) + Σ_s i p s · (Σ_t i t s · x t)`:
    distribute, then exchange the two sums. -/
theorem gram_sum {N H : ℕ} (u i : Fin N → Fin H → ℝ) (x : Fin N → ℝ) (p : Fin N) :
    ∑ t, ((∑ s, u p s * u t s) + (∑ s, i p s * i t s)) * x t
      = (∑ s, u p s * ∑ t, u t s * x t) + (∑ s, i p s * ∑ t, i t s * x t) := by
  simp only [add_mul, Finset.sum_add_distrib, Finset.sum_mul, Finset.mul_sum]
  congr 1 <;>
    (rw [Finset.sum_comm]; exact Finset.sum_congr rfl fun s _ => Finset.sum_congr rfl fun t _ => mul_assoc _ _ _)

/-- The same for extended reals all of whose values are real numbers. -/
theorem gram_sum_ereal {N H : ℕ} (u i : Fin N → Fin H → EReal) (x : Fin N → EReal)
    (hu : ∀ a b, IsR (u a b)) (hi : ∀ a b, IsR (i a b)) (hx : ∀ a, IsR (x a)) (p : Fin N) :
    ∑ t, ((∑ s, u p s * u t s) + (∑ s, i p s * i t s)) * x t
      = (∑ s, u p s * ∑ t, u t s * x t) + (∑ s, i p s * ∑ t, i t s * x t) := by
  choose fu hfu using hu
  choose fi hfi using hi
  choose fx hfx using hx
  simp only [hfu, hfi, hfx, ← EReal.coe_mul, ← coe_sum, ← EReal.coe_add]
  exact congrArg Real.toEReal (gram_sum fu fi fx p)

/-- `(P · Pᵀ + Q · Qᵀ) · X = P · (Pᵀ · X) + Q · (Qᵀ · X)` for tables of real numbers. -/
theorem gram_assoc {n h d : ℕ} (P Q : Arr n h) (X : Arr n d) (hP : AllR P) (hQ : AllR Q) (hX : AllR X) :
    mulA (addA (mulTA P P) (mulTA Q Q)) X = addA (mulA P (TmulA P X)) (mulA Q (TmulA Q X)) := by
  funext j
  exact gram_sum_ereal (fun a b => P (ix2 a b)) (fun a b => Q (ix2 a b)) (fun a => X (ix2 a (j 1)))
    (fun _ _ => hP _) (fun _ _ => hQ _) (fun _ => hX _) (j 0)

/-! ## The two layers -/

section layers

variable {n d h : ℕ} (A : Arr n n) (U I : Arr n d) (UH IH : Arr d h)

/-- The layers' input: the two embedding tables added. -/
def emb : Arr n d := addA U I

/-- The hypergraph term, gather then scatter: `P · (Pᵀ · X) + Q · (Qᵀ · X)` with `P = U · UH`, `Q = I · IH`. -/
def hyp (X : Arr n d) : Arr n d :=
  addA (mulA (mulA U UH) (TmulA (mulA U UH) X)) (mulA (mulA I IH) (TmulA (mulA I IH) X))

/-- The hypergraph term from the Gram matrix: `(P · Pᵀ + Q · Qᵀ) · X`. -/
def hypG (X : Arr n d) : Arr n d :=
  mulA (addA (mulTA (mulA U UH) (mulA U UH)) (mulTA (mulA I IH) (mulA I IH))) X

/-- One layer: the graph term plus the hypergraph term. -/
def step (X : Arr n d) : Arr n d := addA (mulA A X) (hyp U I UH IH X)
/-- One layer, Gram-matrix form. -/
def stepG (X : Arr n d) : Arr n d := addA (mulA A X) (hypG U I UH IH X)

variable {A U I UH IH}

theorem hypG_eq (hU : AllR U) (hI : AllR I) (hUH : AllR UH) (hIH : AllR IH) {X : Arr n d} (hX : AllR X) :
    hypG U I UH IH X = hyp U I UH IH X :=
  gram_assoc _ _ X (hU.mulA hUH) (hI.mulA hIH) hX

theorem stepG_eq (hU : AllR U) (hI : AllR I) (hUH : AllR UH) (hIH : AllR IH) {X : Arr n d} (hX : AllR X) :
    stepG A U I UH IH X = step A U I UH IH X := by
  unfold stepG step
  rw [hypG_eq hU hI hUH hIH hX]

theorem AllR.emb (hU : AllR U) (hI : AllR I) : AllR (emb U I) := hU.addA hI

theorem AllR.hyp (hU : AllR U) (hI : AllR I) (hUH : AllR UH) (hIH : AllR IH) {X : Arr n d} (hX : AllR X) :
    AllR (hyp U I UH IH X) :=
  ((hU.mulA hUH).mulA ((hU.mulA hUH).TmulA hX)).addA ((hI.mulA hIH).mulA ((hI.mulA hIH).TmulA hX))

theorem AllR.step (hA : AllR A) (hU : AllR U) (hI : AllR I) (hUH : AllR UH) (hIH : AllR IH) {X : Arr n d} (hX : AllR X) :
    AllR (step A U I UH IH X) :=
  (hA.mulA hX).addA (AllR.hyp hU hI hUH hIH hX)

end layers

/-! ## The three results -/

/-- Two arrays stacked along a new leading axis. -/
def stack2 {r c : ℕ} (x y : Arr r c) : Arr3 2 r c :=
  fun j => if (j 0).val = 0 then x (ix2 (j 1) (j 2)) else y (ix2 (j 1) (j 2))

section results

variable {n d h : ℕ} (κ : EReal) (A : Arr n n) (U I : Arr n d) (UH IH : Arr d h)

/-- The scaled sum of the input and the two layers' outputs. -/
def out : Arr n d := fun j =>
  κ * ((emb U I j + step A U I UH IH (emb U I) j) + step A U I UH IH (step A U I UH IH (emb U I)) j)
/-- The two layers' graph terms. -/
def gnn : Arr3 2 n d := stack2 (mulA A (emb U I)) (mulA A (step A U I UH IH (emb U I)))
/-- The two layers' hypergraph terms. -/
def hyps : Arr3 2 n d := stack2 (hyp U I UH IH (emb U I)) (hyp U I UH IH (step A U I UH IH (emb U I)))

/-- The same three, every hypergraph term in Gram-matrix form. -/
def outG : Arr n d := fun j =>
  κ * ((emb U I j + stepG A U I UH IH (emb U I) j) + stepG A U I UH IH (stepG A U I UH IH (emb U I)) j)
def gnnG : Arr3 2 n d := stack2 (mulA A (emb U I)) (mulA A (stepG A U I UH IH (emb U I)))
def hypsG : Arr3 2 n d := stack2 (hypG U I UH IH (emb U I)) (hypG U I UH IH (stepG A U I UH IH (emb U I)))

variable {A U I UH IH}

/-- For tables of real numbers the Gram-matrix form gives the same three results. -/
theorem results_eq (hA : AllR A) (hU : AllR U) (hI : AllR I) (hUH : AllR UH) (hIH : AllR IH) :
    outG κ A U I UH IH = out κ A U I UH IH ∧ gnnG A U I UH IH = gnn A U I UH IH ∧ hypsG A U I UH IH = hyps A U I UH IH := by
  have hE : AllR (emb U I) := AllR.emb hU hI
  have h1 : stepG A U I UH IH (emb U I) = step A U I UH IH (emb U I) := stepG_eq hU hI hUH hIH hE
  have hL : AllR (step A U I UH IH (emb U I)) := AllR.step hA hU hI hUH hIH hE
  refine ⟨?_, ?_, ?_⟩
  · unfold outG out
    rw [h1, stepG_eq hU hI hUH hIH hL]
  · unfold gnnG gnn
    rw [h1]
  · unfold hypsG hyps
    rw [h1, hypG_eq hU hI hUH hIH hE, hypG_eq hU hI hUH hIH hL]

end results

end Cert.HyperConv

end
-- ==== Proof.Finite.lean ====
/-
  FINITE INPUTS ARE REAL NUMBERS.

  The precondition computes, for each of the five argument arrays, the conjunction over all entries of the
  comparison `|x| < +∞` (the absolute value is `max x (-x)`, the bound is the single-precision word `0x7F800000`,
  a reduction by `and` over both axes from the constant 1), and then the conjunction of the five resulting bits.
  Over the extended reals the word `0x7F800000` denotes `⊤`.  If the final bit is 1 then each of the five bits is 1,
  so every comparison at every entry is 1, i.e. `max x (-x) < ⊤` at every entry `x`.  An extended real is `⊥`, `⊤` or the
  coercion of a real; at `⊤` the maximum is `⊤` and at `⊥` it is `-⊥ = ⊤`, so the strict inequality fails at both
  infinities, and what is left is a real number.
-/
import proofs.«171643_g20873541059240_cont_8to1_1272_10_alg».proof.Pre_finite_inputs
import proofs.«171643_g20873541059240_cont_8to1_1272_10_alg».proof.Proof.Gen.Pre_finite_inputs
import proofs.«171643_g20873541059240_cont_8to1_1272_10_alg».proof.Proof.LibRealEntries
import Idealize.ShloMosaic.Lib.ReduceAll
import Idealize.ShloMosaic.Lib.ValueIdx
import Idealize.ShloMosaic.Lib.IdealHost

noncomputable section

namespace Cert.FiniteInputs

open Idealize.ShloMosaic Cert.RealEntries

/-- The single-precision pattern of `+∞` (exponent all ones, significand zero, sign clear) denotes `⊤`. -/
theorem top_word : Ideal.ofBits .f32 0x7F800000#32 = (⊤ : EReal) := by
  simp [Ideal.ofBits, Ideal.ieee]

/-- An extended real whose absolute value `max x (-x)` is strictly below `⊤` is a real number: at `⊤` the maximum
is `⊤`, at `⊥` it is `-⊥ = ⊤`, and neither is below `⊤`. -/
theorem isR_of_abs_lt_top (x : EReal) (h : Ideal.cmp .olt (max x (-x)) (⊤ : EReal) = 1#1) : IsR x := by
  induction x using EReal.rec with
  | bot => simp [Ideal.cmp] at h
  | coe r => exact ⟨r, rfl⟩
  | top => simp [Ideal.cmp] at h

/-- The rank-0 shape has one index. -/
instance : Subsingleton Cert.Pre_finite_inputs.S_.Idx := ⟨fun a b => funext fun d => d.elim0⟩

/-- One array, any shape: if the conjunction over all entries of `|x| < +∞` is 1, every entry is a real number.
The conjunction being 1 makes every compared bit 1; the broadcast scalar reads `⊤` at every index. -/
theorem entries_real {s : Shape} (hb : Cert.Pre_finite_inputs.S_.BroadcastsInDim s (![] : Fin 0 → Fin s.rank))
    {axes : List (Fin s.rank)} (hr : s.ReducesTo axes Cert.Pre_finite_inputs.S_) (hu : 0 < Cert.Pre_finite_inputs.S_.numel)
    (x : FVec Ideal s .f32) (init : IVec Cert.Pre_finite_inputs.S_ 1)
    (e : Host.reduce IntOp.andi
          (cmpf .olt (Host.absf x) (broadcastInDim s ![] hb (constant Cert.Pre_finite_inputs.S_ .f32 0x7F800000#32)))
          init hr hu ValueIdx.ix0 = 1#1) :
    ∀ i, IsR (x i) := by
  intro i
  have h := Host.reduce_andi_all _ init hr hu ValueIdx.ix0 e i
  rw [ValueIdx.cmpf_apply, ValueIdx.broadcastInDim_scalar_apply, ValueIdx.constant_apply, top_word] at h
  exact isR_of_abs_lt_top (x i) h

variable [Cert.Pre_finite_inputs.Facts]

/-- The precondition at the extended reals: if its bit is 1, every entry of each of the five argument arrays is a
real number.  The bit is the left-nested conjunction `(((b0 ∧ b1) ∧ b2) ∧ b3) ∧ b4` of the five arrays' bits. -/
theorem real_of_finite
    (x0 : FVec Ideal Cert.Pre_finite_inputs.S131x131 .f32) (x1 x2 : FVec Ideal Cert.Pre_finite_inputs.S131x512 .f32)
    (x3 x4 : FVec Ideal Cert.Pre_finite_inputs.S512x512 .f32)
    (h : Cert.Pre_finite_inputs.fn (F := Ideal) x0 x1 x2 x3 x4 = fun _ => 1#1) :
    (∀ i, IsR (x0 i)) ∧ (∀ i, IsR (x1 i)) ∧ (∀ i, IsR (x2 i)) ∧ (∀ i, IsR (x3 i)) ∧ (∀ i, IsR (x4 i)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨entries_real _ _ _ x0 _ e0, entries_real _ _ _ x1 _ e1, entries_real _ _ _ x2 _ e2,
    entries_real _ _ _ x3 _ e3, entries_real _ _ _ x4 _ e4⟩

end Cert.FiniteInputs

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«171643_g20873541059240_cont_8to1_1272_10_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«171643_g20873541059240_cont_8to1_1272_10_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.RefSide.lean ====
/-
  THE REFERENCE PROGRAM'S THREE RESULTS ARE THE SPECIFICATION'S THREE ARRAYS.

  The reference program computes, from an adjacency `A` (131 × 131), two embedding tables `U`, `I` (131 × 512) and two
  hyperedge weight tables `UH`, `IH` (512 × 512), the tables

      E = U + I,   P = U · UH,   Q = I · IH,
      hyp X = P · (Pᵀ · X) + Q · (Qᵀ · X),     step X = A · X + hyp X,     L₁ = step E,   L₂ = step L₁,

  and returns the scaled sum `κ · (((0 + E) + L₁) + L₂)`, the stack of `A · E` and `A · L₁`, and the stack of `hyp E` and
  `hyp L₁`.  The specification (Spec.lean) is written in the same arrangement, so each of the program's operations is read
  as a whole array and recognised as the specification's operation on the arrays already recognised: a matrix product is
  the sum over the contracted axis of the left operand's row against the right operand's column, a product with a
  transposed left operand is the sum of column against column, an addition is entrywise, a stack reads its first or its
  second piece according to the leading coordinate.  No sum is regrouped and nothing needs to be finite; the only algebra
  is `0 + x = x`, the zero being the real number the zero machine word denotes.
-/
import proofs.«171643_g20873541059240_cont_8to1_1272_10_alg».proof.Proof.RefRead
import proofs.«171643_g20873541059240_cont_8to1_1272_10_alg».proof.Proof.Spec
import proofs.«171643_g20873541059240_cont_8to1_1272_10_alg».proof.Proof.LibBlockDot
import Idealize.ShloMosaic.Lib.Pipeline.Value
import Idealize.ShloMosaic.Lib.ValueIdx
import Idealize.ShloMosaic.PureOps.Ideal.Laws

noncomputable section

open scoped BigOperators

namespace Cert.RefSide

open Idealize.ShloMosaic Idealize.ShloMosaic.ValueIdx Cert.HyperConv Cert.ReferenceIdeal Cert.ReferenceIdeal.ReadP

variable [Cert.ReferenceIdeal.Facts]

/-- the scaling constant, the same machine word in both programs, never evaluated -/
abbrev κ : EReal := Ideal.ofBits .f32 0x3C257A78#32

/-! ## The three kinds of matrix product the program uses, as whole arrays -/

/-- A 131 × 512 table times a 512 × 512 table. -/
theorem dotP (a : Arr 131 512) (b : Arr 512 512) :
    Host.dotGeneral (F := Ideal) (φ₁ := .f32) (φ₂ := .f32) dot_S131x512_S512x512_S131x512_1_0_0_1_n_n none a b = mulA a b := by
  funext j
  obtain ⟨p, q, rfl⟩ : ∃ (p : Fin 131) (q : Fin 512), j = ix2 p q := ⟨j 0, j 1, eq_ix2 j⟩
  exact Cert.BlockDot.hdot_apply none a b p q

/-- The 131 × 131 adjacency times a 131 × 512 table. -/
theorem dotA (a : Arr 131 131) (b : Arr 131 512) :
    Host.dotGeneral (F := Ideal) (φ₁ := .f32) (φ₂ := .f32) dot_S131x131_S131x512_S131x512_1_0_0_1_n_n none a b = mulA a b := by
  funext j
  obtain ⟨p, q, rfl⟩ : ∃ (p : Fin 131) (q : Fin 512), j = ix2 p q := ⟨j 0, j 1, eq_ix2 j⟩
  exact Cert.BlockDot.hdot_apply none a b p q

/-- The transpose of a 131 × 512 table times a 131 × 512 table: entry `(p, q)` is column `p` of the first against
    column `q` of the second. -/
theorem dotT (a b : Arr 131 512) (h : S131x512.Transposes [1, 0] S512x131) :
    Host.dotGeneral (F := Ideal) (φ₁ := .f32) (φ₂ := .f32) dot_S512x131_S131x512_S512x512_1_0_0_1_n_n none
      (transpose S512x131 [1, 0] a h) b = TmulA a b := by
  funext j
  obtain ⟨p, q, rfl⟩ : ∃ (p : Fin 512) (q : Fin 512), j = ix2 p q := ⟨j 0, j 1, eq_ix2 j⟩
  refine (Cert.BlockDot.hdot_apply none (transpose S512x131 [1, 0] a h) b p q).trans ?_
  rw [TmulA_apply]
  refine Finset.sum_congr rfl fun k _ => ?_
  rw [transpose_apply [1, 0] a h (ix2 p k) (ix2 k p) (fun c => by match c with | ⟨0, _⟩ => rfl | ⟨1, _⟩ => rfl)]

/-- Entrywise addition of the ideal values is the addition of arrays. -/
theorem addf_eq (a b : Arr 131 512) : addf (F := Ideal) (φ := .f32) a b = addA a b := rfl

/-! ## The program's tables, one operation at a time

    `E`, `P`, `Q` are the embedding sum and the two node-by-hyperedge tables; every later table is written in them. -/

section tables

variable (x0 : Arr 131 131) (x1 x2 : Arr 131 512) (x3 x4 : Arr 512 512)

/-- `E = U + I`. -/
theorem v0_eq : val_main_v0 (F := Ideal) x1 x2 = emb x1 x2 := rfl

/-- `P = U · UH`. -/
theorem v1_eq : val_main_v1 (F := Ideal) x1 x3 = mulA x1 x3 := dotP x1 x3

/-- `Q = I · IH`. -/
theorem v2_eq : val_main_v2 (F := Ideal) x2 x4 = mulA x2 x4 := dotP x2 x4

/-- The first layer's graph term `A · E`. -/
theorem v3_eq : val_main_v3 (F := Ideal) x0 x1 x2 = mulA x0 (emb x1 x2) := by
  unfold val_main_v3
  rw [v0_eq, dotA]

/-- `Pᵀ · E`: each hyperedge of the first family gathers its members' rows of `E`. -/
theorem v5_eq : val_main_v5 (F := Ideal) x1 x2 x3 = TmulA (mulA x1 x3) (emb x1 x2) := by
  unfold val_main_v5 val_main_v4
  rw [v0_eq, v1_eq, dotT]

/-- `P · (Pᵀ · E)`: the gathered rows handed back to the members. -/
theorem v6_eq : val_main_v6 (F := Ideal) x1 x2 x3 = mulA (mulA x1 x3) (TmulA (mulA x1 x3) (emb x1 x2)) := by
  unfold val_main_v6
  rw [v5_eq, v1_eq, dotP]

/-- `Qᵀ · E`. -/
theorem v8_eq : val_main_v8 (F := Ideal) x1 x2 x4 = TmulA (mulA x2 x4) (emb x1 x2) := by
  unfold val_main_v8 val_main_v7
  rw [v0_eq, v2_eq, dotT]

/-- `Q · (Qᵀ · E)`. -/
theorem v9_eq : val_main_v9 (F := Ideal) x1 x2 x4 = mulA (mulA x2 x4) (TmulA (mulA x2 x4) (emb x1 x2)) := by
  unfold val_main_v9
  rw [v8_eq, v2_eq, dotP]

/-- The first layer's hypergraph term `hyp E`. -/
theorem v10_eq : val_main_v10 (F := Ideal) x1 x2 x3 x4 = hyp x1 x2 x3 x4 (emb x1 x2) := by
  unfold val_main_v10
  rw [v6_eq, v9_eq, addf_eq]
  rfl

/-- The first layer's output `L₁ = A · E + hyp E`. -/
theorem v11_eq : val_main_v11 (F := Ideal) x0 x1 x2 x3 x4 = step x0 x1 x2 x3 x4 (emb x1 x2) := by
  unfold val_main_v11
  rw [v3_eq, v10_eq, addf_eq]
  rfl

/-- The second layer's graph term `A · L₁`. -/
theorem v12_eq : val_main_v12 (F := Ideal) x0 x1 x2 x3 x4 = mulA x0 (step x0 x1 x2 x3 x4 (emb x1 x2)) := by
  unfold val_main_v12
  rw [v11_eq, dotA]

/-- `Pᵀ · L₁`. -/
theorem v14_eq : val_main_v14 (F := Ideal) x0 x1 x2 x3 x4 = TmulA (mulA x1 x3) (step x0 x1 x2 x3 x4 (emb x1 x2)) := by
  unfold val_main_v14 val_main_v13
  rw [v11_eq, v1_eq, dotT]

/-- `P · (Pᵀ · L₁)`. -/
theorem v15_eq : val_main_v15 (F := Ideal) x0 x1 x2 x3 x4
    = mulA (mulA x1 x3) (TmulA (mulA x1 x3) (step x0 x1 x2 x3 x4 (emb x1 x2))) := by
  unfold val_main_v15
  rw [v14_eq, v1_eq, dotP]

/-- `Qᵀ · L₁`. -/
theorem v17_eq : val_main_v17 (F := Ideal) x0 x1 x2 x3 x4 = TmulA (mulA x2 x4) (step x0 x1 x2 x3 x4 (emb x1 x2)) := by
  unfold val_main_v17 val_main_v16
  rw [v11_eq, v2_eq, dotT]

/-- `Q · (Qᵀ · L₁)`. -/
theorem v18_eq : val_main_v18 (F := Ideal) x0 x1 x2 x3 x4
    = mulA (mulA x2 x4) (TmulA (mulA x2 x4) (step x0 x1 x2 x3 x4 (emb x1 x2))) := by
  unfold val_main_v18
  rw [v17_eq, v2_eq, dotP]

/-- The second layer's hypergraph term `hyp L₁`. -/
theorem v19_eq : val_main_v19 (F := Ideal) x0 x1 x2 x3 x4 = hyp x1 x2 x3 x4 (step x0 x1 x2 x3 x4 (emb x1 x2)) := by
  unfold val_main_v19
  rw [v15_eq, v18_eq, addf_eq]
  rfl

/-- The second layer's output `L₂ = A · L₁ + hyp L₁`. -/
theorem v20_eq : val_main_v20 (F := Ideal) x0 x1 x2 x3 x4
    = step x0 x1 x2 x3 x4 (step x0 x1 x2 x3 x4 (emb x1 x2)) := by
  unfold val_main_v20
  rw [v12_eq, v19_eq, addf_eq]
  rfl

end tables

/-! ## The three results -/

/-- The scaled sum.  The program adds `E`, `L₁`, `L₂` onto a table of zeros and multiplies by the constant; the zero word
    denotes the real number 0, and `0 + E = E`. -/
theorem ref_out (x0 : Arr 131 131) (x1 x2 : Arr 131 512) (x3 x4 : Arr 512 512) :
    val_main_v26 (F := Ideal) x0 x1 x2 x3 x4 = out κ x0 x1 x2 x3 x4 := by
  funext j
  rw [val_main_v26_apply, val_main_v25_apply, val_main_v24_apply, val_main_v23_apply, val_main_v22_apply,
    val_main_v21_apply, v0_eq, v11_eq, v20_eq]
  show κ * (((Ideal.ofBits .f32 0x00000000#32 + emb x1 x2 j) + step x0 x1 x2 x3 x4 (emb x1 x2) j)
      + step x0 x1 x2 x3 x4 (step x0 x1 x2 x3 x4 (emb x1 x2)) j)
    = κ * ((emb x1 x2 j + step x0 x1 x2 x3 x4 (emb x1 x2) j) + step x0 x1 x2 x3 x4 (step x0 x1 x2 x3 x4 (emb x1 x2)) j)
  rw [Ideal.ofBits_zero_f32, zero_add]

/-- A table with a leading axis of extent one added, read at `(0, p, q)`, is the table at `(p, q)`. -/
theorem lead_idx (p : Fin 131) (q : Fin 512) :
    (fun a => match a with
      | ⟨0, _⟩ => ⟨((ix3 (0 : Fin 1) p q) 1).val, ((ix3 (0 : Fin 1) p q) 1).isLt⟩
      | ⟨1, _⟩ => ⟨((ix3 (0 : Fin 1) p q) 2).val, ((ix3 (0 : Fin 1) p q) 2).isLt⟩ : S131x512.Idx) = ix2 p q :=
  funext fun a => by match a with | ⟨0, _⟩ => rfl | ⟨1, _⟩ => rfl

/-- The two layers' graph terms, stacked: the first piece is `A · E`, the second `A · L₁`. -/
theorem ref_gnn (x0 : Arr 131 131) (x1 x2 : Arr 131 512) (x3 x4 : Arr 512 512) :
    val_main_v29 (F := Ideal) x0 x1 x2 x3 x4 = gnn x0 x1 x2 x3 x4 := by
  funext j
  obtain ⟨s, p, q, rfl⟩ : ∃ (s : Fin 2) (p : Fin 131) (q : Fin 512), j = ix3 s p q := ⟨j 0, j 1, j 2, eq_ix3 j⟩
  unfold val_main_v29
  match s with
  | ⟨0, h0⟩ =>
    refine (concatenate_pair_apply_left (t := S2x131x512) (s₁ := S1x131x512) (s₂ := S1x131x512) _ _ _ _ (ix3 (⟨0, h0⟩ : Fin 2) p q) rfl (ix3 (0 : Fin 1) p q)
      (fun b => by match b with | ⟨0, _⟩ => rfl | ⟨1, _⟩ => rfl | ⟨2, _⟩ => rfl)).trans ?_
    rw [val_main_v27_apply, v3_eq]
    show mulA x0 (emb x1 x2) (idx_main_v27 (ix3 (0 : Fin 1) p q)) = mulA x0 (emb x1 x2) (ix2 p q)
    rw [show idx_main_v27 (ix3 (0 : Fin 1) p q) = ix2 p q from lead_idx p q]
  | ⟨1, h1⟩ =>
    refine (concatenate_pair_apply_right (t := S2x131x512) (s₁ := S1x131x512) (s₂ := S1x131x512) _ _ _ _ (ix3 (⟨1, h1⟩ : Fin 2) p q) rfl rfl (ix3 (0 : Fin 1) p q)
      (fun b => by
        match b with
        | ⟨0, _⟩ => exact fun hb => absurd rfl hb
        | ⟨1, _⟩ => exact fun _ => rfl
        | ⟨2, _⟩ => exact fun _ => rfl) rfl).trans ?_
    rw [val_main_v28_apply, v12_eq]
    show mulA x0 (step x0 x1 x2 x3 x4 (emb x1 x2)) (idx_main_v28 (ix3 (0 : Fin 1) p q))
      = mulA x0 (step x0 x1 x2 x3 x4 (emb x1 x2)) (ix2 p q)
    rw [show idx_main_v28 (ix3 (0 : Fin 1) p q) = ix2 p q from lead_idx p q]

/-- The two layers' hypergraph terms, stacked: the first piece is `hyp E`, the second `hyp L₁`. -/
theorem ref_hyps (x0 : Arr 131 131) (x1 x2 : Arr 131 512) (x3 x4 : Arr 512 512) :
    val_main_v32 (F := Ideal) x0 x1 x2 x3 x4 = hyps x0 x1 x2 x3 x4 := by
  funext j
  obtain ⟨s, p, q, rfl⟩ : ∃ (s : Fin 2) (p : Fin 131) (q : Fin 512), j = ix3 s p q := ⟨j 0, j 1, j 2, eq_ix3 j⟩
  unfold val_main_v32
  match s with
  | ⟨0, h0⟩ =>
    refine (concatenate_pair_apply_left (t := S2x131x512) (s₁ := S1x131x512) (s₂ := S1x131x512) _ _ _ _ (ix3 (⟨0, h0⟩ : Fin 2) p q) rfl (ix3 (0 : Fin 1) p q)
      (fun b => by match b with | ⟨0, _⟩ => rfl | ⟨1, _⟩ => rfl | ⟨2, _⟩ => rfl)).trans ?_
    rw [val_main_v30_apply, v10_eq]
    show hyp x1 x2 x3 x4 (emb x1 x2) (idx_main_v30 (ix3 (0 : Fin 1) p q)) = hyp x1 x2 x3 x4 (emb x1 x2) (ix2 p q)
    rw [show idx_main_v30 (ix3 (0 : Fin 1) p q) = ix2 p q from lead_idx p q]
  | ⟨1, h1⟩ =>
    refine (concatenate_pair_apply_right (t := S2x131x512) (s₁ := S1x131x512) (s₂ := S1x131x512) _ _ _ _ (ix3 (⟨1, h1⟩ : Fin 2) p q) rfl rfl (ix3 (0 : Fin 1) p q)
      (fun b => by
        match b with
        | ⟨0, _⟩ => exact fun hb => absurd rfl hb
        | ⟨1, _⟩ => exact fun _ => rfl
        | ⟨2, _⟩ => exact fun _ => rfl) rfl).trans ?_
    rw [val_main_v31_apply, v19_eq]
    show hyp x1 x2 x3 x4 (step x0 x1 x2 x3 x4 (emb x1 x2)) (idx_main_v31 (ix3 (0 : Fin 1) p q))
      = hyp x1 x2 x3 x4 (step x0 x1 x2 x3 x4 (emb x1 x2)) (ix2 p q)
    rw [show idx_main_v31 (ix3 (0 : Fin 1) p q) = ix2 p q from lead_idx p q]

end Cert.RefSide
end
-- ==== Proof.LibRowsDot.lean ====
/-
  A MATRIX PRODUCT WITH THE RIGHT OPERAND TRANSPOSED, at the ideal values.

  An `[R, K]` array `a` times the transpose of an `[N, K]` array `w` contracts the columns of both: entry `(p, c)` of the
  result is `∑ k, a (p, k) · w (c, k)`, row `p` of `a` against row `c` of `w` (with `w = a` it is the Gram matrix of the rows
  of `a`).  Its dimension record is `DotDims.transposedRhs R K N` (contract axis 1 with axis 1, keep axis 0 of each, no
  batch axes); a printed program's record with the same six lists is that record by unfolding.  Proved here once for
  every `R`, `K`, `N`:
  • there is one contracted axis, of extent `K` (`rank_contr`, `size_contr`);
  • at the output index `(p, c)` and contraction position `k` the left operand is read at `(p, k)` and the right operand
    at `(c, k)` (`lhs_at`, `rhs_at`);
  • so the vector unit's product into a zero accumulator is that sum (`kdotT_apply`), and so is the host's
    `dot_general` over the same record (`hdotT_apply`).
  The sum is read off term by term: no algebra of the extended reals is used, and nothing needs to be finite.
-/
import Idealize.ShloMosaic.Lib.ValueIdx
import Idealize.ShloMosaic.PureOps.Ideal.Laws

noncomputable section

open scoped BigOperators

namespace Cert.RowsDot

open Idealize.ShloMosaic Idealize.ShloMosaic.ValueIdx

section facts

variable (R K N : ℕ)

/-- One axis is contracted. -/
theorem rank_contr : (DotDims.transposedRhs R K N).contr.rank = 1 := rfl

/-- Its extent is the shared extent `K`. -/
theorem size_contr : (DotDims.transposedRhs R K N).contr.size ⟨0, Nat.one_pos⟩ = K := rfl

/-- The left operand's index at output `(p, c)`, contraction position `k`: row `p`, column `k`. -/
theorem lhs_at (p : Fin R) (c : Fin N) (k : Fin K) :
    (DotDims.transposedRhs R K N).lhsIdx (ix2 p c) ((contrEquiv1 (DotDims.transposedRhs R K N) K rfl rfl).symm k) = ix2 p k := by
  have hk := contrEquiv1_symm_val (DotDims.transposedRhs R K N) K rfl rfl k
  funext a
  apply Fin.ext
  match a with
  | ⟨0, _⟩ =>
    show ((DotDims.transposedRhs R K N).lhsIdx (ix2 p c) ((contrEquiv1 (DotDims.transposedRhs R K N) K rfl rfl).symm k) 0).val = p.val
    unfold DotDims.lhsIdx
    rw [dif_neg (show ¬ (0 : Fin 2) ∈ (DotDims.transposedRhs R K N).lhsBatch from List.not_mem_nil),
      dif_pos (show (0 : Fin 2) ∈ (DotDims.transposedRhs R K N).lhsNonContracting from List.mem_singleton.mpr rfl)]
    rfl
  | ⟨1, _⟩ => exact ((DotDims.transposedRhs R K N).lhsIdx_val_of_single rfl (ix2 p c) _).trans hk

/-- The right operand's index at output `(p, c)`, contraction position `k`: row `c`, column `k`. -/
theorem rhs_at (p : Fin R) (c : Fin N) (k : Fin K) :
    (DotDims.transposedRhs R K N).rhsIdx (ix2 p c) ((contrEquiv1 (DotDims.transposedRhs R K N) K rfl rfl).symm k) = ix2 c k := by
  have hk := contrEquiv1_symm_val (DotDims.transposedRhs R K N) K rfl rfl k
  funext a
  apply Fin.ext
  match a with
  | ⟨0, _⟩ =>
    show ((DotDims.transposedRhs R K N).rhsIdx (ix2 p c) ((contrEquiv1 (DotDims.transposedRhs R K N) K rfl rfl).symm k) 0).val = c.val
    unfold DotDims.rhsIdx
    rw [dif_neg (show ¬ (0 : Fin 2) ∈ (DotDims.transposedRhs R K N).rhsBatch from List.not_mem_nil),
      dif_pos (show (0 : Fin 2) ∈ (DotDims.transposedRhs R K N).rhsNonContracting from List.mem_singleton.mpr rfl)]
    rfl
  | ⟨1, _⟩ => exact ((DotDims.transposedRhs R K N).rhsIdx_val_of_single rfl (ix2 p c) _).trans hk

end facts

/-- The sum over the one-axis contraction index, re-indexed by that axis's coordinate. -/
theorem contr_sum {R K N : ℕ} {φ₁ φ₂ : FTy} (l : FVec Ideal ⟨2, ![R, K]⟩ φ₁) (r : FVec Ideal ⟨2, ![N, K]⟩ φ₂)
    (p : Fin R) (c : Fin N) :
    (∑ q : (DotDims.transposedRhs R K N).contr.Idx,
        l ((DotDims.transposedRhs R K N).lhsIdx (ix2 p c) q) * r ((DotDims.transposedRhs R K N).rhsIdx (ix2 p c) q))
      = ∑ k : Fin K, l (ix2 p k) * r (ix2 c k) := by
  rw [← Equiv.sum_comp (contrEquiv1 (DotDims.transposedRhs R K N) K rfl rfl).symm]
  exact Finset.sum_congr rfl fun k _ => by rw [lhs_at R K N p c k, rhs_at R K N p c k]

/-- The vector unit's product into the zero accumulator, read at `(p, c)`: row `p` of `a` against row `c` of `w`. -/
theorem kdotT_apply {R K N : ℕ} {φ₁ φ₂ : FTy} (prec : Option ContractPrecision)
    (a : FVec Ideal ⟨2, ![R, K]⟩ φ₁) (w : FVec Ideal ⟨2, ![N, K]⟩ φ₂) (p : Fin R) (c : Fin N) :
    matmul (DotDims.transposedRhs R K N) prec a w (constant ⟨2, ![R, N]⟩ .f32 0x00000000#32) (ix2 p c)
      = ∑ k : Fin K, a (ix2 p k) * w (ix2 c k) := by
  show FloatOps.matmul (DotDims.transposedRhs R K N) prec a w (constant ⟨2, ![R, N]⟩ .f32 0x00000000#32) (ix2 p c) = _
  rw [Ideal.matmul_constant_zero_apply]
  exact contr_sum a w p c

/-- The host's `dot_general` over the same record, read at `(p, c)`: the same sum. -/
theorem hdotT_apply {R K N : ℕ} {φ₁ φ₂ : FTy} (prec : Option ContractPrecision)
    (a : FVec Ideal ⟨2, ![R, K]⟩ φ₁) (w : FVec Ideal ⟨2, ![N, K]⟩ φ₂) (p : Fin R) (c : Fin N) :
    Host.dotGeneral (DotDims.transposedRhs R K N) prec a w (ix2 p c) = ∑ k : Fin K, a (ix2 p k) * w (ix2 c k) := by
  simp only [Host.dotGeneral]
  rw [Ideal.dotGeneral_apply]
  exact contr_sum a w p c

end Cert.RowsDot

end
-- ==== Proof.KPayload.lean ====
/-
  THE KERNEL BODY'S VALUES, as arrays of extended reals.

  The body loads the adjacency `A`, the two embedding tables `U`, `I` and the two weight tables `UH`, `IH` whole, and
  computes with matrix products into zero accumulators: `E = U + I`, `P = U · UH`, `Q = I · IH`, the Gram matrix
  `P · Pᵀ + Q · Qᵀ` ONCE, and per layer the graph term `A · X` and the hypergraph term `(P · Pᵀ + Q · Qᵀ) · X`.  Each
  named value of the body is read here as the corresponding array of the specification in its Gram-matrix form: a product
  into a zero accumulator is the plain sum `∑ k, a (p, k) · b (k, c)` (or, for the Gram matrix, rows against rows), an
  addition is entry by entry.  The five values stored — each cast from [131, 512] to one slab [1, 131, 512] of the
  [5, 131, 512] result — are the two graph terms, the two hypergraph terms and the scaled sum.  Nothing is regrouped here.
-/
import proofs.«171643_g20873541059240_cont_8to1_1272_10_alg».proof.Proof.Gen.KernelIdeal.Skeleton
import proofs.«171643_g20873541059240_cont_8to1_1272_10_alg».proof.Proof.Spec
import proofs.«171643_g20873541059240_cont_8to1_1272_10_alg».proof.Proof.LibBlockDot
import proofs.«171643_g20873541059240_cont_8to1_1272_10_alg».proof.Proof.LibRowsDot
import Idealize.ShloMosaic.Lib.ValueLayout

noncomputable section

namespace Cert.KernelSide

open Idealize.ShloMosaic Idealize.ShloMosaic.ValueIdx Cert.HyperConv Cert.KernelIdeal Cert.KernelIdeal.Gen

variable [Cert.KernelIdeal.Facts]

/-- The scaling constant: one machine word, the same in both programs, never evaluated. -/
abbrev κ : EReal := Ideal.ofBits .f32 0x3C257A78#32

/-! ## The three products -/

/-- `[131, 131] · [131, 512]` into the zero accumulator. -/
theorem mm_adj (a : FVec Ideal S131x131 .f32) (b : FVec Ideal S131x512 .f32) :
    matmul dot_S131x131_S131x512_S131x512_1_0_0_1_n_n none a b (constant S131x512 .f32 0x00000000#32) = mulA a b := by
  funext j
  obtain ⟨p, q, rfl⟩ : ∃ (p : Fin 131) (q : Fin 512), j = ix2 p q := ⟨j 0, j 1, eq_ix2 j⟩
  exact Cert.BlockDot.kdot_apply none a b p q

/-- `[131, 512] · [512, 512]` into the zero accumulator. -/
theorem mm_proj (a : FVec Ideal S131x512 .f32) (b : FVec Ideal S512x512 .f32) :
    matmul dot_S131x512_S512x512_S131x512_1_0_0_1_n_n none a b (constant S131x512 .f32 0x00000000#32) = mulA a b := by
  funext j
  obtain ⟨p, q, rfl⟩ : ∃ (p : Fin 131) (q : Fin 512), j = ix2 p q := ⟨j 0, j 1, eq_ix2 j⟩
  exact Cert.BlockDot.kdot_apply none a b p q

/-- `[131, 512] · [131, 512]ᵀ` into the zero accumulator: rows against rows. -/
theorem mm_gram (a b : FVec Ideal S131x512 .f32) :
    matmul dot_S131x512_S131x512_S131x131_1_1_0_0_n_n none a b (constant S131x131 .f32 0x00000000#32) = mulTA a b := by
  funext j
  obtain ⟨p, q, rfl⟩ : ∃ (p : Fin 131) (q : Fin 131), j = ix2 p q := ⟨j 0, j 1, eq_ix2 j⟩
  exact Cert.RowsDot.kdotT_apply none a b p q

/-! ## The body's named values (`v0 = U`, `v1 = I`, `v2 = A`, `v4 = UH`, `v6 = IH`) -/

variable (v0 v1 : Vec Ideal S131x512 .f32) (v2 : Vec Ideal S131x131 .f32) (v4 v6 : Vec Ideal S512x512 .f32)

/-- The layers' input `E`. -/
theorem pay3_eq : k0_pay3 v0 v1 = emb v0 v1 := rfl

/-- The Gram matrix `P · Pᵀ + Q · Qᵀ`. -/
theorem pay4_eq : k0_pay4 v0 v1 v4 v6
    = addA (mulTA (mulA v0 v4) (mulA v0 v4)) (mulTA (mulA v1 v6) (mulA v1 v6)) := by
  unfold k0_pay4
  dsimp only
  rw [mm_proj, mm_proj, mm_gram, mm_gram]
  rfl

/-- The first graph term `A · E`. -/
theorem pay5_eq : k0_pay5 v0 v1 v2 = mulA v2 (emb v0 v1) := by
  unfold k0_pay5
  dsimp only
  rw [mm_adj, pay3_eq]

/-- The first hypergraph term. -/
theorem pay6_eq : k0_pay6 v0 v1 v4 v6 = hypG v0 v1 v4 v6 (emb v0 v1) := by
  unfold k0_pay6
  dsimp only
  rw [mm_adj, pay3_eq, pay4_eq]
  rfl

/-- The first layer's output `L₁`. -/
theorem pay9_eq : k0_pay9 v0 v1 v2 v4 v6 = stepG v2 v0 v1 v4 v6 (emb v0 v1) := by
  unfold k0_pay9
  rw [pay5_eq, pay6_eq]
  rfl

/-- `E + L₁`. -/
theorem pay10_eq : k0_pay10 v0 v1 v2 v4 v6 = addA (emb v0 v1) (stepG v2 v0 v1 v4 v6 (emb v0 v1)) := by
  unfold k0_pay10
  rw [pay3_eq, pay9_eq]
  rfl

/-- The second graph term `A · L₁`. -/
theorem pay11_eq : k0_pay11 v0 v1 v2 v4 v6 = mulA v2 (stepG v2 v0 v1 v4 v6 (emb v0 v1)) := by
  unfold k0_pay11
  dsimp only
  rw [mm_adj, pay9_eq]

/-- The second hypergraph term. -/
theorem pay12_eq : k0_pay12 v0 v1 v2 v4 v6 = hypG v0 v1 v4 v6 (stepG v2 v0 v1 v4 v6 (emb v0 v1)) := by
  unfold k0_pay12
  dsimp only
  rw [mm_adj, pay4_eq, pay9_eq]
  rfl

/-! ## The five stored slabs, at an index `(u, p, q)` of one slab -/

theorem slab_gnn0 (u : Fin 1) (p : Fin 131) (q : Fin 512) :
    k0_pay7 v0 v1 v2 (ix3 u p q) = mulA v2 (emb v0 v1) (ix2 p q) := by
  unfold k0_pay7
  rw [pay5_eq]
  exact shapeCast_ab_1ab_apply _ _ u p q

theorem slab_gnn1 (u : Fin 1) (p : Fin 131) (q : Fin 512) :
    k0_pay13 v0 v1 v2 v4 v6 (ix3 u p q) = mulA v2 (stepG v2 v0 v1 v4 v6 (emb v0 v1)) (ix2 p q) := by
  unfold k0_pay13
  rw [pay11_eq]
  exact shapeCast_ab_1ab_apply _ _ u p q

theorem slab_hyp0 (u : Fin 1) (p : Fin 131) (q : Fin 512) :
    k0_pay8 v0 v1 v4 v6 (ix3 u p q) = hypG v0 v1 v4 v6 (emb v0 v1) (ix2 p q) := by
  unfold k0_pay8
  rw [pay6_eq]
  exact shapeCast_ab_1ab_apply _ _ u p q

theorem slab_hyp1 (u : Fin 1) (p : Fin 131) (q : Fin 512) :
    k0_pay1 (k0_pay12 v0 v1 v2 v4 v6) (ix3 u p q)
      = hypG v0 v1 v4 v6 (stepG v2 v0 v1 v4 v6 (emb v0 v1)) (ix2 p q) := by
  unfold k0_pay1
  rw [pay12_eq]
  exact shapeCast_ab_1ab_apply _ _ u p q

theorem slab_out (u : Fin 1) (p : Fin 131) (q : Fin 512) :
    k0_pay2 (k0_pay10 v0 v1 v2 v4 v6) (k0_pay11 v0 v1 v2 v4 v6) (k0_pay12 v0 v1 v2 v4 v6) (ix3 u p q)
      = outG κ v2 v0 v1 v4 v6 (ix2 p q) := by
  unfold k0_pay2
  rw [pay10_eq, pay11_eq, pay12_eq]
  exact shapeCast_ab_1ab_apply _ _ u p q

end Cert.KernelSide

end
-- ==== Proof.KValue.lean ====
/-
  WHAT THE KERNEL'S PROGRAM RETURNS, as arrays of extended reals.

  The kernel is launched once, with every operand staged whole.  Its body stores five slabs [1, 131, 512] into the
  [5, 131, 512] result — slab 0 and 1 the two graph terms, slab 2 and 3 the two hypergraph terms, slab 4 the scaled sum —
  so the result buffer after the body is ONE function `res5` of the five argument arrays: at `(s, p, q)` it is entry
  `(p, q)` of the table slab `s` holds.  The slabs tile the buffer, the one block of the window is the whole array, and so
  the result array after the run is `res5` of the arguments.  The program then cuts it: slab 4 with its unit axis dropped
  is the first result, slabs 0–1 the second, slabs 2–3 the third.  Read at an index these are the specification's three
  arrays in Gram-matrix form.
-/
import proofs.«171643_g20873541059240_cont_8to1_1272_10_alg».proof.Proof.Gen.KernelIdeal.Frame
import proofs.«171643_g20873541059240_cont_8to1_1272_10_alg».proof.Proof.KPayload
import Idealize.ShloMosaic.Lib.Pipeline.Value
import Idealize.ShloMosaic.Lib.ValueLayout
import Idealize.ShloMosaic.Lib.StableHlo.Run

set_option maxRecDepth 16384

noncomputable section

namespace Cert.KernelSide

open Idealize.ShloMosaic Idealize.ShloMosaic.TcCoe Idealize.ShloMosaic.ValueIdx Idealize.SL.Sem Idealize.ShloMosaic.StableHlo
open Cert.HyperConv Cert.KernelIdeal Cert.KernelIdeal.Gen
open Idealize.ShloMosaic.Pipeline (Dat)

variable [Cert.KernelIdeal.Facts]

/-! ## The result buffer as one function of the arguments -/

/-- The [5, 131, 512] result: slab `s` at `(p, q)`. -/
def res5 (a0 : Arr 131 131) (a1 a2 : Arr 131 512) (a3 a4 : Arr 512 512) : Arr3 5 131 512 := fun i =>
  (match i 0 with
    | ⟨0, _⟩ => mulA a0 (emb a1 a2)
    | ⟨1, _⟩ => mulA a0 (stepG a0 a1 a2 a3 a4 (emb a1 a2))
    | ⟨2, _⟩ => hypG a1 a2 a3 a4 (emb a1 a2)
    | ⟨3, _⟩ => hypG a1 a2 a3 a4 (stepG a0 a1 a2 a3 a4 (emb a1 a2))
    | ⟨_ + 4, _⟩ => outG κ a0 a1 a2 a3 a4) (ix2 (i 1) (i 2))

/-- Where an index of one stored slab sits in the buffer: slab `k`, same row and column. -/
theorem slab_emb (k : ℕ) (hk : k < 5) (inb : ∀ a, (![k, 0, 0] : Fin 3 → Nat) a + S1x131x512.size a ≤ S5x131x512.size a)
    (u : Fin 1) (p : Fin 131) (q : Fin 512) :
    (Rect.unit (s := S5x131x512) ![k, 0, 0] S1x131x512.size inb).emb (ix3 u p q) = ix3 (⟨k, hk⟩ : Fin 5) p q := by
  funext a
  apply Fin.ext
  match a with
  | ⟨0, _⟩ => show k + 1 * u.val = k; omega
  | ⟨1, _⟩ => show 0 + 1 * p.val = p.val; omega
  | ⟨2, _⟩ => show 0 + 1 * q.val = q.val; omega

theorem hz2 : (![0, 0] : Fin 2 → Nat) = fun _ => 0 := funext fun a => by fin_cases a <;> rfl

/-- The buffer after the body, from whole input blocks, is `res5` of them: every stored slab is the slab of `res5` its
    rectangle names, and the five slabs cover the buffer. -/
theorem out0_5_eq (x0 : Vec Ideal S131x131 .f32) (x1 x2 : Vec Ideal S131x512 .f32) (x3 x4 : Vec Ideal S512x512 .f32) :
    out0_5 x0 x1 x2 x3 x4 = res5 x0 x1 x2 x3 x4 := by
  funext y
  unfold out0_5
  simp only [View.ld_unit_zero (S := S131x512) hz2, View.ld_unit_zero (S := S131x131) hz2, View.ld_unit_zero (S := S512x512) hz2]
  refine View.canon_apply_of_pieces (Val := Elt Ideal) (e := .f32) (res5 x0 x1 x2 x3 x4) _ ?_ y (cover0_5 _ _ _ _ _ y)
  intro pc hpc x
  simp only [List.mem_cons, List.mem_nil_iff, or_false] at hpc
  rcases hpc with rfl | rfl | rfl | rfl | rfl
  all_goals
    obtain ⟨u, p, q, rfl⟩ : ∃ (u : Fin 1) (p : Fin 131) (q : Fin 512), x = ix3 u p q := ⟨x 0, x 1, x 2, eq_ix3 x⟩
  · exact (slab_out x1 x2 x0 x3 x4 u p q).trans (congrArg (res5 x0 x1 x2 x3 x4) (slab_emb 4 (by decide) Facts₀.inb_S5x131x512_S1x131x512_4_0_0 u p q)).symm
  · exact (slab_hyp1 x1 x2 x0 x3 x4 u p q).trans (congrArg (res5 x0 x1 x2 x3 x4) (slab_emb 3 (by decide) Facts₀.inb_S5x131x512_S1x131x512_3_0_0 u p q)).symm
  · exact (slab_gnn1 x1 x2 x0 x3 x4 u p q).trans (congrArg (res5 x0 x1 x2 x3 x4) (slab_emb 1 (by decide) Facts₀.inb_S5x131x512_S1x131x512_1_0_0 u p q)).symm
  · exact (slab_hyp0 x1 x2 x3 x4 u p q).trans (congrArg (res5 x0 x1 x2 x3 x4) (slab_emb 2 (by decide) Facts₀.inb_S5x131x512_S1x131x512_2_0_0 u p q)).symm
  · exact (slab_gnn0 x1 x2 x0 u p q).trans (congrArg (res5 x0 x1 x2 x3 x4) (slab_emb 0 (by decide) Facts₀.inb_S5x131x512_S1x131x512_0_0_0 u p q)).symm

/-! ## One grid point: every window's block is its whole array -/

variable (m : (ℓ : Loc nD τ sig) → Buf (Elt Ideal) ℓ) (ρ : Dev nD → PrngReg)

/-- With no grid every window's block index is zero on every axis (decided over the one point). -/
theorem idx_zero : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0) :=
  (by decide +kernel : ∀ t : Fin grid0.N, _)

/-- The adjacency's block is the adjacency. -/
theorem iblk0_eq (c : Dev nD) (t : Fin cfg0.N) : (iblk m c 0 t : S131x131.Idx → EReal) = V m c main_arg0 := by
  funext y
  show V m c main_arg0 (((cfg0.win 0).blk t).view.emb y) = V m c main_arg0 y
  refine congrArg _ (funext fun a => Fin.ext ?_)
  obtain ⟨⟨e0, e1⟩, -⟩ := idx_zero t
  match a with
  | ⟨0, _⟩ => show win0_0.index t (0 : Fin 2) * 131 + 1 * (y 0).val = (y 0).val; omega
  | ⟨1, _⟩ => show win0_0.index t (1 : Fin 2) * 131 + 1 * (y 1).val = (y 1).val; omega

theorem iblk1_eq (c : Dev nD) (t : Fin cfg0.N) : (iblk m c 1 t : S131x512.Idx → EReal) = V m c main_arg1 := by
  funext y
  show V m c main_arg1 (((cfg0.win 1).blk t).view.emb y) = V m c main_arg1 y
  refine congrArg _ (funext fun a => Fin.ext ?_)
  obtain ⟨-, ⟨e0, e1⟩, -⟩ := idx_zero t
  match a with
  | ⟨0, _⟩ => show win0_1.index t (0 : Fin 2) * 131 + 1 * (y 0).val = (y 0).val; omega
  | ⟨1, _⟩ => show win0_1.index t (1 : Fin 2) * 512 + 1 * (y 1).val = (y 1).val; omega

theorem iblk2_eq (c : Dev nD) (t : Fin cfg0.N) : (iblk m c 2 t : S131x512.Idx → EReal) = V m c main_arg2 := by
  funext y
  show V m c main_arg2 (((cfg0.win 2).blk t).view.emb y) = V m c main_arg2 y
  refine congrArg _ (funext fun a => Fin.ext ?_)
  obtain ⟨-, -, ⟨e0, e1⟩, -⟩ := idx_zero t
  match a with
  | ⟨0, _⟩ => show win0_2.index t (0 : Fin 2) * 131 + 1 * (y 0).val = (y 0).val; omega
  | ⟨1, _⟩ => show win0_2.index t (1 : Fin 2) * 512 + 1 * (y 1).val = (y 1).val; omega

theorem iblk3_eq (c : Dev nD) (t : Fin cfg0.N) : (iblk m c 3 t : S512x512.Idx → EReal) = V m c main_arg3 := by
  funext y
  show V m c main_arg3 (((cfg0.win 3).blk t).view.emb y) = V m c main_arg3 y
  refine congrArg _ (funext fun a => Fin.ext ?_)
  obtain ⟨-, -, -, ⟨e0, e1⟩, -⟩ := idx_zero t
  match a with
  | ⟨0, _⟩ => show win0_3.index t (0 : Fin 2) * 512 + 1 * (y 0).val = (y 0).val; omega
  | ⟨1, _⟩ => show win0_3.index t (1 : Fin 2) * 512 + 1 * (y 1).val = (y 1).val; omega

theorem iblk4_eq (c : Dev nD) (t : Fin cfg0.N) : (iblk m c 4 t : S512x512.Idx → EReal) = V m c main_arg4 := by
  funext y
  show V m c main_arg4 (((cfg0.win 4).blk t).view.emb y) = V m c main_arg4 y
  refine congrArg _ (funext fun a => Fin.ext ?_)
  obtain ⟨-, -, -, -, ⟨e0, e1⟩, -⟩ := idx_zero t
  match a with
  | ⟨0, _⟩ => show win0_4.index t (0 : Fin 2) * 512 + 1 * (y 0).val = (y 0).val; omega
  | ⟨1, _⟩ => show win0_4.index t (1 : Fin 2) * 512 + 1 * (y 1).val = (y 1).val; omega

/-! ## The result array after the run -/

/-- What the one point writes back is the one block of `res5` of the argument arrays. -/
theorem flushed5_eq (c : Dev nD) (t : Fin cfg0.N) :
    (dats m 0 c).flushed 5 t = ((cfg0.win 5).blk t).view.read (Elt Ideal)
      (res5 (V m c main_arg0) (V m c main_arg1) (V m c main_arg2) (V m c main_arg3) (V m c main_arg4)) := by
  show (cfg0.win 5).cut (grid0.coords t) ((dats m 0 c).after 5 t) = _
  rw [after0_5, iblk0_eq, iblk1_eq, iblk2_eq, iblk3_eq, iblk4_eq,
    out0_5_eq (V m c main_arg0) (V m c main_arg1) (V m c main_arg2) (V m c main_arg3) (V m c main_arg4)]
  refine funext fun (j : S5x131x512.Idx) => ?_
  show res5 (V m c main_arg0) (V m c main_arg1) (V m c main_arg2) (V m c main_arg3) (V m c main_arg4) j
    = res5 (V m c main_arg0) (V m c main_arg1) (V m c main_arg2) (V m c main_arg3) (V m c main_arg4)
        (((cfg0.win 5).blk t).view.emb j)
  refine congrArg _ (funext fun a => Fin.ext ?_)
  obtain ⟨-, -, -, -, -, e0, e1, e2⟩ := idx_zero t
  match a with
  | ⟨0, _⟩ => show (j 0).val = win0_5.index t (0 : Fin 3) * 5 + 1 * (j 0).val; omega
  | ⟨1, _⟩ => show (j 1).val = win0_5.index t (1 : Fin 3) * 131 + 1 * (j 1).val; omega
  | ⟨2, _⟩ => show (j 2).val = win0_5.index t (2 : Fin 3) * 512 + 1 * (j 2).val; omega

/-- An index of the array is in the point's block iff each coordinate is in the block's range on its axis. -/
theorem mem_blk5 (t : Fin cfg0.N) (i : S5x131x512.Idx) :
    i ∈ ((cfg0.win 5).blk t).view.set ↔ ∀ a : Fin 3, win0_5.index t a * S5x131x512.size a ≤ (i a).val
      ∧ (i a).val < win0_5.index t a * S5x131x512.size a + S5x131x512.size a := by
  show i ∈ ((View.whole main_v0).slice (win0_5.rect t)).set ↔ _
  rw [View.set_slice_whole, Rect.mem_set_unit]
  exact Iff.rfl

/-- The one block is the whole array: every index is in it. -/
theorem cover5 (i : S5x131x512.Idx) :
    ∃ t : Fin cfg0.N, (cfg0.win 5).flush t = true ∧ i ∈ ((cfg0.win 5).blk t).view.set := by
  refine ⟨t0_0, flush0_5 t0_0, ?_⟩
  rw [mem_blk5]
  obtain ⟨-, -, -, -, -, e0, e1, e2⟩ := idx_zero t0_0
  have h0 : (i 0).val < 5 := (i 0).isLt
  have h1 : (i 1).val < 131 := (i 1).isLt
  have h2 : (i 2).val < 512 := (i 2).isLt
  intro a
  match a with
  | ⟨0, _⟩ => show win0_5.index t0_0 (0 : Fin 3) * 5 ≤ (i 0).val ∧ (i 0).val < win0_5.index t0_0 (0 : Fin 3) * 5 + 5; omega
  | ⟨1, _⟩ => show win0_5.index t0_0 (1 : Fin 3) * 131 ≤ (i 1).val ∧ (i 1).val < win0_5.index t0_0 (1 : Fin 3) * 131 + 131; omega
  | ⟨2, _⟩ => show win0_5.index t0_0 (2 : Fin 3) * 512 ≤ (i 2).val ∧ (i 2).val < win0_5.index t0_0 (2 : Fin 3) * 512 + 512; omega

/-- THE RESULT ARRAY after the run: `res5` of the argument arrays. -/
theorem final5 (c : Dev nD) : (dats m 0 c).arrAt 5 cfg0.N
    = res5 (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed5_eq m c t) cover5

/-! ## The program's three results -/

/-- The result array as the lines after the region find it. -/
theorem tail_arr (c : Dev nD) :
    Pipeline.withArrays (cfgs 0).spec c (V0 m c) (fun w => (dats m 0 c).arrAt w (cfgs 0).N) (Proc.devRef .tc main_v0)
      = res5 (m ((c : Thread nD τ).loc main_arg0)) (m ((c : Thread nD τ).loc main_arg1)) (m ((c : Thread nD τ).loc main_arg2))
        (m ((c : Thread nD τ).loc main_arg3)) (m ((c : Thread nD τ).loc main_arg4)) :=
  (Pipeline.withArrays_arr spec0 winFacts0.arr_inj c _ _ 5).trans (final5 m c)

/-- The first result: slab 4 with its unit axis dropped is the scaled sum. -/
theorem tail_out (c : Dev nD) :
    Pipeline.afterTail₀ cfgs (dats m) 0 (V0 m) [hostOps1] c main_v2
      = outG κ (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v2) = _
  after_results
  rw [tail_arr m c]
  refine funext fun (j : S131x512.Idx) => ?_
  obtain ⟨p, q, rfl⟩ : ∃ (p : Fin 131) (q : Fin 512), j = ix2 p q := ⟨j 0, j 1, eq_ix2 j⟩
  show shapeCast S131x512 _ Facts₀.shapeCasts_S1x131x512_S131x512 (ix2 p q) = _
  rw [shapeCast_1ab_ab_apply]
  exact extractStridedSlice_apply _ _ _ (ix3 (0 : Fin 1) p q) (ix3 (⟨4, by decide⟩ : Fin 5) p q) (fun a => by
    match a with
    | ⟨0, _⟩ => rfl
    | ⟨1, _⟩ => exact (Nat.zero_add _).symm
    | ⟨2, _⟩ => exact (Nat.zero_add _).symm)

/-- The second result: slabs 0 and 1 are the two graph terms. -/
theorem tail_gnn (c : Dev nD) :
    Pipeline.afterTail₀ cfgs (dats m) 0 (V0 m) [hostOps1] c main_v3
      = gnnG (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v3) = _
  after_results
  rw [tail_arr m c]
  refine funext fun (j : S2x131x512.Idx) => ?_
  obtain ⟨s, p, q, rfl⟩ : ∃ (s : Fin 2) (p : Fin 131) (q : Fin 512), j = ix3 s p q := ⟨j 0, j 1, j 2, eq_ix3 j⟩
  match s with
  | ⟨0, h0⟩ =>
    refine (extractStridedSlice_apply _ _ _ (ix3 (⟨0, h0⟩ : Fin 2) p q) (ix3 (⟨0, by decide⟩ : Fin 5) p q) (fun a => by
      match a with
      | ⟨0, _⟩ => rfl
      | ⟨1, _⟩ => exact (Nat.zero_add _).symm
      | ⟨2, _⟩ => exact (Nat.zero_add _).symm)).trans ?_
    rfl
  | ⟨1, h1⟩ =>
    refine (extractStridedSlice_apply _ _ _ (ix3 (⟨1, h1⟩ : Fin 2) p q) (ix3 (⟨1, by decide⟩ : Fin 5) p q) (fun a => by
      match a with
      | ⟨0, _⟩ => rfl
      | ⟨1, _⟩ => exact (Nat.zero_add _).symm
      | ⟨2, _⟩ => exact (Nat.zero_add _).symm)).trans ?_
    rfl

/-- The third result: slabs 2 and 3 are the two hypergraph terms. -/
theorem tail_hyps (c : Dev nD) :
    Pipeline.afterTail₀ cfgs (dats m) 0 (V0 m) [hostOps1] c main_v4
      = hypsG (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v4) = _
  after_results
  rw [tail_arr m c]
  refine funext fun (j : S2x131x512.Idx) => ?_
  obtain ⟨s, p, q, rfl⟩ : ∃ (s : Fin 2) (p : Fin 131) (q : Fin 512), j = ix3 s p q := ⟨j 0, j 1, j 2, eq_ix3 j⟩
  match s with
  | ⟨0, h0⟩ =>
    refine (extractStridedSlice_apply _ _ _ (ix3 (⟨0, h0⟩ : Fin 2) p q) (ix3 (⟨2, by decide⟩ : Fin 5) p q) (fun a => by
      match a with
      | ⟨0, _⟩ => rfl
      | ⟨1, _⟩ => exact (Nat.zero_add _).symm
      | ⟨2, _⟩ => exact (Nat.zero_add _).symm)).trans ?_
    rfl
  | ⟨1, h1⟩ =>
    refine (extractStridedSlice_apply _ _ _ (ix3 (⟨1, h1⟩ : Fin 2) p q) (ix3 (⟨3, by decide⟩ : Fin 5) p q) (fun a => by
      match a with
      | ⟨0, _⟩ => rfl
      | ⟨1, _⟩ => exact (Nat.zero_add _).symm
      | ⟨2, _⟩ => exact (Nat.zero_add _).symm)).trans ?_
    rfl

/-! ## The run, read -/

/-- Every weakly fair execution of the kernel's program terminates with its three results at the specification's three
    arrays in Gram-matrix form, of the argument arrays, and the arguments unchanged. -/
theorem run : θ_run defs (onTc (τ := τ) (main (F := Ideal))) ⟨m, fun _ => 0, ρ⟩ fun r => ∀ c : Dev nD,
      r.2.mem ((c.tc : Thread nD τ).loc main_v2) = outG κ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v3) = gnnG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v4) = hypsG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      ((h c).2 main_v2 (Pipeline.mem_restRefs_of main_v2 rfl (by decide))).trans (tail_out m c),
      ((h c).2 main_v3 (Pipeline.mem_restRefs_of main_v3 rfl (by decide))).trans (tail_gnn m c),
      ((h c).2 main_v4 (Pipeline.mem_restRefs_of main_v4 rfl (by decide))).trans (tail_hyps m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelSide

end
-- ==== Proof.lean ====
/-
  A TWO-LAYER HYPERGRAPH CONVOLUTION: the fused kernel against its reference, over the extended reals.

  Both programs take an adjacency `A` (131 × 131), embedding tables `U`, `I` (131 × 512) and hyperedge weight tables `UH`, `IH`
  (512 × 512).  With `E = U + I`, `P = U · UH`, `Q = I · IH`, a layer sends `X` to `A · X + hyp X`, and the results are the
  scaled sum `κ · (E + L₁ + L₂)` of the input and the two layers' outputs, the two graph terms `A · E`, `A · L₁`, and the two
  hypergraph terms `hyp E`, `hyp L₁`.

  The reference computes the hypergraph term by gathering and scattering, `hyp X = P · (Pᵀ · X) + Q · (Qᵀ · X)`.  The kernel
  forms the Gram matrix `P · Pᵀ + Q · Qᵀ` once and computes `(P · Pᵀ + Q · Qᵀ) · X` in each layer; it stores its five tables as
  the slabs of one [5, 131, 512] array, which the program then cuts into the three results.

  The two agree by associativity of the matrix product and its distributivity over the sum of the two Gram matrices.  On
  the extended reals that law needs every entry to be a real number (a product does not distribute over `+∞ + −∞`), which
  is what the precondition gives: every input entry is finite, hence real, and sums and products of reals are real, so the
  law applies at both layers.  Everything else is reading: each operation of either program at an index.

  The kernel's frames are the generated ones; the reference's frame is its run with the results dropped; the idealization
  rewrote nothing, so there is nothing to preserve.
-/
import proofs.«171643_g20873541059240_cont_8to1_1272_10_alg».proof.Defs
import proofs.«171643_g20873541059240_cont_8to1_1272_10_alg».proof.Proof.Gen.Kernel
import proofs.«171643_g20873541059240_cont_8to1_1272_10_alg».proof.Proof.Gen.Kernel.Skeleton
import proofs.«171643_g20873541059240_cont_8to1_1272_10_alg».proof.Proof.Gen.Kernel.Launch
import proofs.«171643_g20873541059240_cont_8to1_1272_10_alg».proof.Proof.Gen.Kernel.Points
import proofs.«171643_g20873541059240_cont_8to1_1272_10_alg».proof.Proof.Gen.Kernel.Frame
import proofs.«171643_g20873541059240_cont_8to1_1272_10_alg».proof.Proof.Gen.KernelIdeal
import proofs.«171643_g20873541059240_cont_8to1_1272_10_alg».proof.Proof.Gen.KernelIdeal.Skeleton
import proofs.«171643_g20873541059240_cont_8to1_1272_10_alg».proof.Proof.Gen.KernelIdeal.Launch
import proofs.«171643_g20873541059240_cont_8to1_1272_10_alg».proof.Proof.Gen.KernelIdeal.Points
import proofs.«171643_g20873541059240_cont_8to1_1272_10_alg».proof.Proof.Gen.KernelIdeal.Frame
import proofs.«171643_g20873541059240_cont_8to1_1272_10_alg».proof.Proof.Gen.ReferenceIdeal
import proofs.«171643_g20873541059240_cont_8to1_1272_10_alg».proof.Proof.Gen.Pre_finite_inputs
import proofs.«171643_g20873541059240_cont_8to1_1272_10_alg».proof.Proof.RefRun
import proofs.«171643_g20873541059240_cont_8to1_1272_10_alg».proof.Proof.RefRead
import proofs.«171643_g20873541059240_cont_8to1_1272_10_alg».proof.Proof.Spec
import proofs.«171643_g20873541059240_cont_8to1_1272_10_alg».proof.Proof.Finite
import proofs.«171643_g20873541059240_cont_8to1_1272_10_alg».proof.Proof.RefSide
import proofs.«171643_g20873541059240_cont_8to1_1272_10_alg».proof.Proof.KValue
import Idealize.ShloMosaic.Adequacy
import Idealize.ShloMosaic.Init

noncomputable section

namespace Cert.Proof

open Idealize.ShloMosaic Idealize.ShloMosaic.TcCoe Idealize.SL.Sem Cert.Kernel

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with what it says of the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The kernel's program ends at the three results in Gram-matrix form, the reference's at the three results in
    gather-and-scatter form, of arguments that agree; the inputs are finite, hence real, and for real tables the two forms
    are equal. -/
theorem algebraic : Cert.algebraic_KernelIdeal_ReferenceIdeal := by
  intro m ρ m' ρ' hpre hagree
  refine ⟨_, _, _, Cert.KernelSide.run m ρ, ?_⟩
  refine (θ_run Cert.ReferenceIdeal.defs _ _).mono (fun _ h c => ?_) (Cert.ReferenceIdeal.ValueP.run (F := Ideal) m' ρ')
  obtain ⟨h26, h29, h32, hargs⟩ := h c
  obtain ⟨a0, a1, a2, a3, a4⟩ := hagree c
  obtain ⟨r0, r1, r2, r3, r4⟩ := Cert.FiniteInputs.real_of_finite _ _ _ _ _ (hpre c)
  obtain ⟨eo, eg, eh⟩ := Cert.HyperConv.results_eq Cert.KernelSide.κ r0 r1 r2 r3 r4
  refine ⟨?_, ?_, ?_, hargs⟩
  · rw [h26, Cert.ReferenceIdeal.ReadP.val_main_v26_eq, Cert.RefSide.ref_out, a0, a1, a2, a3, a4]
    exact eo.symm
  · rw [h29, Cert.ReferenceIdeal.ReadP.val_main_v29_eq, Cert.RefSide.ref_gnn, a0, a1, a2, a3, a4]
    exact eg.symm
  · rw [h32, Cert.ReferenceIdeal.ReadP.val_main_v32_eq, Cert.RefSide.ref_hyps, a0, a1, a2, a3, a4]
    exact eh.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
